-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg2 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v43 main_v46
  main_v47

def fn_part1 {F : FTy → Type} [FloatOps F] (main_arg2 : IVec S800000 32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S5000x64 : Shape := ⟨2, ![5000, 64]⟩
abbrev S1x64 : Shape := ⟨2, ![1, 64]⟩

abbrev nBuf : Space → Nat
  | .hbm => 53
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S50000x64, .f32⟩
  | .hbm, ⟨29, _⟩ => ⟨S64x64, .bf16⟩
  | .hbm, ⟨30, _⟩ => ⟨S64x64, .bf16⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S50000x64, .f32⟩
  | .hbm, ⟨50, _⟩ => ⟨S64x64, .bf16⟩
  | .hbm, ⟨51, _⟩ => ⟨S64x64, .bf16⟩
  | .hbm, ⟨52, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .bf16⟩
  | .local _ .vmem, ⟨3, _⟩ => ⟨S64, .f32⟩
  | .local _ .vmem, ⟨4, _⟩ => ⟨S64x64, .bf16⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .bf16⟩
  | .local _ .vmem, ⟨11, _⟩ => ⟨S64, .f32⟩
  | .local _ .vmem, ⟨12, _⟩ => ⟨S64x64, .bf16⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with every buffer named at the end. @main is four segments: host operations, the first
  pallas_call, host operations, the second pallas_call. The contents of the TensorCore's buffers at each boundary are a
  fold from the launch memory: a host stretch applies its operations; a pallas_call leaves each of its arrays at what
  its write-backs leave and every other buffer as it was. The library's launch theorem for a list of segments gives:
  every weakly fair execution terminates without a fault in a state whose unscoped buffers hold the last boundary's
  contents. The result buffer and the kept arguments are read off that one fact.
-/
import proofs.«148053_j79001628442825_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every unscoped buffer at the last boundary's contents. -/
abbrev EndsAt (c : Dev nD) (s : MemSt nD τ sig (Elt F)) : Prop :=
  ∀ b ∈ Pipeline.ucRefs τ sig, s.mem (((c : Thread nD τ)).1, b) = W4 m ρ c b

/-- The last thread state against a final state: it holds a points-to for every unscoped buffer at the last
    boundary's contents, and a points-to read against the state interpretation says the memory holds those contents.
    The generator register it also holds is dropped. -/
theorem last_reading (c : Dev nD) (s' : Phys nD τ sig (Elt F)) :
    iprop(Tₙ m ρ c ∗ SI s') ⊢ (|={Set.univ}=> iprop(⌜EndsAt m ρ c s'.mem⌝ ∗ SI s') : sProp 𝕄) := by
  iintro ⟨⟨Hbufs, -⟩, Hstate⟩
  unfold StableHlo.held
  imodintro
  iapply (pointsTo_read_all (Pipeline.ucRefs τ sig) (fun b => (((c : Thread nD τ)).1, b)) (W4 m ρ c) s')
  isplitl [Hbufs]
  · iexact Hbufs
  · iexact Hstate

set_option backward.isDefEq.respectTransparency.types false in
/-- Every weakly fair execution of @main terminates, nothing faulting, with every unscoped buffer of every core at the
    contents the fold through the four segments gives. -/
theorem run_all : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    -- @main is the segments' run
    (fun c Q => by rw [main_run m ρ c])
    -- the two pallas_calls are different pipelines
    (by simp only [segs, Pipeline.Seg.pipes_host, Pipeline.Seg.pipes_region, Pipeline.Seg.pipes_nil]; decide)
    -- no core owes another anything at launch, and no core is given a ghost resource of its own
    (O₀ := 0) (hL := fun _ _ => rfl) (G := fun _ => iprop(emp))
    (u₀ := initOf (Pipeline.cells cfgs cellOf_inj) (Pipeline.launchToks cfgs cellOf_inj))
    (hu₀ := by
      -- the certificate's algebra is the pipeline library's own, so the launch element is owned as it stands; the
      -- per-core resources are all `emp`
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      imodintro
      isplitl [Hu]
      · iapply hown; iexact Hu
      · iapply hemp; iempintro)
    -- the thread state: every unscoped buffer at the current boundary's contents, beside the generator register and
    -- the core's (empty) debts
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core by itself: the launch deals it its unscoped buffers at the launch memory (the first thread state's
      -- buffers), zeroed semaphores, empty debts, launch credit and its generator register; the semaphores and the
      -- credit are not kept
      refine Pipeline.initEach L lv fun c => ?_
      rw [Pipeline.unscopedBufs_held c (W0 m ρ c)]
      iintro ⟨⟨Hbufs, -, Hdebts, -, Hreg, -⟩, -⟩
      imodintro
      isplitl [Hbufs]
      · iexact Hbufs
      isplitl [Hreg]
      · iexists _; iexact Hreg
      · iexists ∅; iexact Hdebts)
    (QY := EndsAt m ρ)
    (hfin := last_reading m ρ)
    (hQ := fun _ h => h)

/-- The run read at the result buffer and the arguments: the result is the second pallas_call's result array after its
    write-backs, each argument as launched. -/
theorem run : θ_run defs (onTc (τ := τ) (main (F := F))) ⟨m, fun _ => 0, ρ⟩ (fun r => ∀ c : Dev nD,
      r.2.mem ((c.tc : Thread nD τ).loc main_v33) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨(h c _ (mem_uc main_v33 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_all m ρ)

end Cert.KernelIdeal.RunValue

end
-- ==== Proof.DenseRow.lean ====
/-
  One node's perceptron, as a function of that node's aggregated feature row. With `row` the 64 aggregated
  features of a node, the layer's output feature `q` is

      ∑ₖ tanh (∑ₗ row l · w1 l k + b1 k) · w2 k q + b2 q

  over the extended reals. Each output row depends on its own input row only, which is what lets the node axis be cut
  into blocks of rows in any way.
-/
import Idealize.ShloMosaic.PureOps.Ideal
import Idealize.ShloMosaic.Lib.ValueIdx

noncomputable section

namespace Cert.Dense

open Idealize.ShloMosaic Idealize.ShloMosaic.ValueIdx

/-- Output feature `q` of the two-matrix perceptron applied to one feature row. -/
def denseAt (row : Fin 64 → EReal) (w1 : Fin 64 → Fin 64 → EReal) (b1 : Fin 64 → EReal)
    (w2 : Fin 64 → Fin 64 → EReal) (b2 : Fin 64 → EReal) (q : Fin 64) : EReal :=
  (∑ k : Fin 64, Ideal.tanh ((∑ l : Fin 64, row l * w1 l k) + b1 k) * w2 k q) + b2 q

/-- The perceptron applied to every node row of a 50000×64 feature array: entry (r, q) is `denseAt` of row r at q. -/
def rows (h : (⟨2, ![50000, 64]⟩ : Shape).Idx → EReal) (w1 : (⟨2, ![64, 64]⟩ : Shape).Idx → EReal)
    (b1 : (⟨1, ![64]⟩ : Shape).Idx → EReal) (w2 : (⟨2, ![64, 64]⟩ : Shape).Idx → EReal)
    (b2 : (⟨1, ![64]⟩ : Shape).Idx → EReal) : (⟨2, ![50000, 64]⟩ : Shape).Idx → EReal :=
  fun i => denseAt (fun l => h (ix2 (⟨(i 0).val, idx2_lt0 i⟩ : Fin 50000) l)) (fun l k => w1 (ix2 l k))
    (fun k => b1 (ix1 k)) (fun k c => w2 (ix2 k c)) (fun c => b2 (ix1 c)) ⟨(i 1).val, idx2_lt1 i⟩

end Cert.Dense

end
-- ==== Proof.KernelBody.lean ====
/-
  The kernel body on one block of 5000 node rows, read entry by entry at the exact instance: entry (p, q) of what the
  body stores is the perceptron `Cert.Dense.denseAt` of row p of the loaded feature block. The two matrix products
  accumulate into zero, so each is a plain sum over the contracted axis; the narrowing of the products' operands is the
  identity on extended reals; each bias is a length-64 vector viewed as one row and repeated down the 5000 rows.
-/
import proofs.«148053_j79001628442825_2_alg».proof.Proof.Gen.KernelIdeal.Skeleton
import proofs.«148053_j79001628442825_2_alg».proof.Proof.DenseRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The block product's operand indices -/

theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000×64 block times a 64×64 matrix into a zero accumulator: entry (p, q) is ∑ₗ a(p, l) · b(l, q). -/
theorem blockProduct_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ l : Fin 64, a (ix2 p l) * b (ix2 l q) := by
  simp only [matmul]
  rw [Ideal.matmul_constant_zero_apply,
    ← Equiv.sum_comp (ValueIdx.contrEquiv1 dot_S5000x64_S64x64_S5000x64_1_0_0_1_n_n 64 rfl rfl).symm]
  refine Finset.sum_congr rfl fun l _ => ?_
  have hl := ValueIdx.contrEquiv1_symm_val dot_S5000x64_S64x64_S5000x64_1_0_0_1_n_n 64 rfl rfl l
  have el : dot_S5000x64_S64x64_S5000x64_1_0_0_1_n_n.lhsIdx (ix2 p q)
      ((ValueIdx.contrEquiv1 dot_S5000x64_S64x64_S5000x64_1_0_0_1_n_n 64 rfl rfl).symm l) = ix2 p l :=
    funext fun a => Fin.ext (by
      match a with
      | ⟨0, _⟩ => exact lhs_row _ _
      | ⟨1, _⟩ => exact (lhs_col _ _).trans hl)
  have er : dot_S5000x64_S64x64_S5000x64_1_0_0_1_n_n.rhsIdx (ix2 p q)
      ((ValueIdx.contrEquiv1 dot_S5000x64_S64x64_S5000x64_1_0_0_1_n_n 64 rfl rfl).symm l) = ix2 l q :=
    funext fun a => Fin.ext (by
      match a with
      | ⟨0, _⟩ => exact (rhs_row _ _).trans hl
      | ⟨1, _⟩ => exact rhs_col _ _)
  rw [el, er]

/-- A length-64 bias viewed as one row and repeated down the block's rows: entry (p, q) is the bias's entry q. -/
theorem biasRows_apply (b : FVec Ideal S64 .f32) (p : Fin 5000) (q : Fin 64) :
    broadcastTo S5000x64 (shapeCast S1x64 b shapeCasts_S64_S1x64) broadcasts_S1x64_S5000x64 (ix2 p q) = b (ix1 q) :=
  (ValueIdx.broadcastTo_1b_ab_apply _ broadcasts_S1x64_S5000x64 p q).trans
    (ValueIdx.shapeCast_a_1a_apply b shapeCasts_S64_S1x64 (0 : Fin 1) q)

/-- The first half of the body at entry (p, k): the hidden unit `tanh (∑ₗ x(p, l) · w1(l, k) + b1 k)`. -/
theorem hidden_apply (x0 : FVec Ideal S5000x64 .f32) (w1 : FVec Ideal S64x64 .bf16) (b1 : FVec Ideal S64 .f32)
    (p : Fin 5000) (k : Fin 64) :
    tanh (addf (matmul dot_S5000x64_S64x64_S5000x64_1_0_0_1_n_n none
        (truncf .bf16 (shapeCast S5000x64 x0 shapeCasts_S5000x64_S5000x64) bitsLt_bf16_f32)
        (shapeCast S64x64 w1 shapeCasts_S64x64_S64x64) (constant (F := Ideal) S5000x64 .f32 0x00000000#32))
      (broadcastTo S5000x64 (shapeCast S1x64 b1 shapeCasts_S64_S1x64) broadcasts_S1x64_S5000x64)) (ix2 p k)
      = Ideal.tanh ((∑ l : Fin 64, x0 (ix2 p l) * w1 (ix2 l k)) + b1 (ix1 k)) := by
  show Ideal.tanh (_ + _) = _
  rw [blockProduct_apply, biasRows_apply, shapeCast_self, shapeCast_self]
  rfl

/-- WHAT THE BODY STORES, entry by entry: the perceptron of row p of the loaded feature block. -/
theorem pay_apply (x0 : FVec Ideal S5000x64 .f32) (w1 : FVec Ideal S64x64 .bf16) (b1 : FVec Ideal S64 .f32)
    (w2 : FVec Ideal S64x64 .bf16) (b2 : FVec Ideal S64 .f32) (p : Fin 5000) (q : Fin 64) :
    k0_pay1 (F := Ideal) x0 w1 b1 w2 b2 (ix2 p q)
      = Cert.Dense.denseAt (fun l => x0 (ix2 p l)) (fun l k => w1 (ix2 l k)) (fun k => b1 (ix1 k))
          (fun k c => w2 (ix2 k c)) (fun c => b2 (ix1 c)) q := by
  unfold k0_pay1
  show _ + _ = _
  rw [blockProduct_apply, biasRows_apply]
  unfold Cert.Dense.denseAt
  refine congrArg (· + b2 (ix1 q)) (Finset.sum_congr rfl fun k _ => ?_)
  rw [shapeCast_self w2]
  exact congrArg (· * w2 (ix2 k q)) (hidden_apply x0 w1 b1 p k)

/-- A block of rows against the whole array: if the loaded feature block is rows `base … base + 4999` of a 50000×64
    array `h`, then what the body stores at block position j is the perceptron of `h` at the array index i that j
    names (row `base + j₀`, column `j₁`). -/
theorem block_rows (h : S50000x64.Idx → EReal) (x0 : FVec Ideal S5000x64 .f32) (w1 : FVec Ideal S64x64 .bf16)
    (b1 : FVec Ideal S64 .f32) (w2 : FVec Ideal S64x64 .bf16) (b2 : FVec Ideal S64 .f32) (base : Nat)
    (hx0 : ∀ (p : Fin 5000) (l : Fin 64) (hb : base + p.val < 50000), x0 (ix2 p l) = h (ix2 (⟨base + p.val, hb⟩ : Fin 50000) l))
    (j : S5000x64.Idx) (i : S50000x64.Idx) (hi0 : (i 0).val = base + (j 0).val) (hi1 : (i 1).val = (j 1).val) :
    k0_pay1 (F := Ideal) x0 w1 b1 w2 b2 j = Cert.Dense.rows h w1 b1 w2 b2 i := by
  obtain ⟨p, q, rfl⟩ : ∃ (p : Fin 5000) (q : Fin 64), j = ix2 p q := ⟨j 0, j 1, eq_ix2 j⟩
  have hp0 : (i 0).val = base + p.val := hi0
  have hq1 : (i 1).val = q.val := hi1
  rw [pay_apply]
  unfold Cert.Dense.rows
  have hq : (⟨(i 1).val, idx2_lt1 i⟩ : Fin 64) = q := Fin.ext hq1
  have hrow : (fun l : Fin 64 => x0 (ix2 p l)) = fun l => h (ix2 (⟨(i 0).val, idx2_lt0 i⟩ : Fin 50000) l) :=
    funext fun l => by
      have hb : base + p.val < 50000 := by have := idx2_lt0 i; omega
      rw [hx0 p l hb]
      exact congrArg (fun r : Fin 50000 => h (ix2 r l)) (Fin.ext hp0.symm)
  rw [hq, hrow]

/-- The second pallas_call runs the same body. -/
theorem pay1_eq : @k1_pay1 = @k0_pay1 := rfl

end Cert.KernelIdeal.Body

end
-- ==== Proof.RegionOne.lean ====
/-
  The first pallas_call, as a function of the arrays it finds: its result array holds, at (r, q), the perceptron of
  row r of the aggregated features. The grid has 10 points; point t stages rows 5000·t … 5000·t + 4999 of the features
  (all 64 columns) and the four parameter arrays whole, and writes back rows 5000·t … 5000·t + 4999 of the result.
  Each result entry lies in exactly the block of the point `r / 5000`, so the ten write-backs fill the array.
-/
import proofs.«148053_j79001628442825_2_alg».proof.Proof.Gen.KernelIdeal.Frame
import proofs.«148053_j79001628442825_2_alg».proof.Proof.KernelBody

set_option maxRecDepth 16384

noncomputable section

namespace Cert.KernelIdeal.RegionOne

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The printed index maps over the grid: the feature window and the result window sit at block row t, column 0; the
    parameter windows at block 0. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The staged feature block at point t is rows 5000·t … of the feature array. -/
theorem featureBlock (c : Dev nD) (t : Fin cfg0.N) (p : Fin 5000) (l : Fin 64) (hb : t.val * 5000 + p.val < 50000) :
    (iblk0 V c 0 t : FVec Ideal S5000x64 .f32) (ix2 p l)
      = (V c main_v13 : S50000x64.Idx → EReal) (ix2 (⟨t.val * 5000 + p.val, hb⟩ : Fin 50000) l) := by
  obtain ⟨e0, e1, -⟩ := blockIndex t
  show V c main_v13 (((cfg0.win 0).blk t).view.emb (ix2 p l)) = V c main_v13 _
  refine congrArg (V c main_v13) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * l.val = l.val; rw [e1]; omega

/-- Each parameter window stages its whole array at every point. -/
theorem w1Block (c : Dev nD) (t : Fin cfg0.N) : (iblk0 V c 1 t : FVec Ideal S64x64 .bf16) = V c main_v14 := by
  obtain ⟨-, -, e0, e1, -⟩ := blockIndex t
  funext y
  show V c main_v14 (((cfg0.win 1).blk t).view.emb y) = V c main_v14 y
  refine congrArg (V c main_v14) (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega
theorem b1Block (c : Dev nD) (t : Fin cfg0.N) : (iblk0 V c 2 t : FVec Ideal S64 .f32) = V c main_arg4 := by
  obtain ⟨-, -, -, -, e0, -⟩ := blockIndex t
  funext y
  show V c main_arg4 (((cfg0.win 2).blk t).view.emb y) = V c main_arg4 y
  refine congrArg (V c main_arg4) (funext fun a => Fin.ext ?_)
  match a with
  | ⟨0, _⟩ => show win0_2.index t (0 : Fin 1) * 64 + 1 * (y 0).val = (y 0).val; rw [e0]; omega
theorem w2Block (c : Dev nD) (t : Fin cfg0.N) : (iblk0 V c 3 t : FVec Ideal S64x64 .bf16) = V c main_v15 := by
  obtain ⟨-, -, -, -, -, e0, e1, -⟩ := blockIndex t
  funext y
  show V c main_v15 (((cfg0.win 3).blk t).view.emb y) = V c main_v15 y
  refine congrArg (V c main_v15) (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega
theorem b2Block (c : Dev nD) (t : Fin cfg0.N) : (iblk0 V c 4 t : FVec Ideal S64 .f32) = V c main_arg6 := by
  obtain ⟨-, -, -, -, -, -, -, e0, -⟩ := blockIndex t
  funext y
  show V c main_arg6 (((cfg0.win 4).blk t).view.emb y) = V c main_arg6 y
  refine congrArg (V c main_arg6) (funext fun a => Fin.ext ?_)
  match a with
  | ⟨0, _⟩ => show win0_4.index t (0 : Fin 1) * 64 + 1 * (y 0).val = (y 0).val; rw [e0]; omega

/-- The result array's contents after the call, as a function of what the call finds. -/
abbrev result (c : Dev nD) : S50000x64.Idx → EReal :=
  Cert.Dense.rows (V c main_v13) (V c main_v14) (V c main_arg4) (V c main_v15) (V c main_arg6)

/-- WHAT POINT t WRITES BACK is block t of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero off2]
  simp only [View.ld_unit_zero (S := S5000x64) off2, View.ld_unit_zero (S := S64x64) off2, View.ld_unit_zero (S := S64) off1]
  rw [w1Block, b1Block, w2Block, b2Block]
  obtain ⟨-, -, -, -, -, -, -, -, e0, e1⟩ := blockIndex t
  funext j
  show k0_pay1 (F := Ideal) (iblk0 V c 0 t) (V c main_v14) (V c main_arg4) (V c main_v15) (V c main_arg6) j
    = result V c (((cfg0.win 5).blk t).view.emb j)
  refine block_rows (V c main_v13) (iblk0 V c 0 t) (V c main_v14) (V c main_arg4) (V c main_v15) (V c main_arg6)
    (t.val * 5000) (fun p l hb => featureBlock V c t p l hb) j _ ?_ ?_
  · show win0_5.index t (0 : Fin 2) * 5000 + 1 * (j 0).val = t.val * 5000 + (j 0).val; rw [e0]; omega
  · show win0_5.index t (1 : Fin 2) * 64 + 1 * (j 1).val = (j 1).val; rw [e1]; omega

/-- An index of the result array is in point t's block iff each coordinate is in the block's range on its axis. -/
theorem mem_block (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v16).slice (win0_5.rect t)).set ↔ _
  rw [View.set_slice_whole, Rect.mem_set_unit]
  exact Iff.rfl

/-- Every index of the result array lies in the block of the point `r / 5000`. -/
theorem covered (i : S50000x64.Idx) : ∃ t : Fin cfg0.N, (cfg0.win 5).flush t = true ∧ i ∈ ((cfg0.win 5).blk t).view.set := by
  have hi0 : (i 0).val < 50000 := idx2_lt0 i
  have hi1 : (i 1).val < 64 := idx2_lt1 i
  have hN : cfg0.N = 10 := N_0
  let t : Fin cfg0.N := ⟨(i 0).val / 5000, by rw [hN]; omega⟩
  obtain ⟨-, -, -, -, -, -, -, -, e0, e1⟩ := blockIndex t
  have ht : t.val = (i 0).val / 5000 := rfl
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- THE RESULT ARRAY after the call. -/
theorem final (c : Dev nD) : (dat0 V c).arrAt 5 cfg0.N = result V c :=
  (dat0 V c).arrAt_eq_of_cover 5 (result V c) (fun t _ => flushed_eq V c t) covered

end Cert.KernelIdeal.RegionOne

end
-- ==== Proof.RegionTwo.lean ====
/-
  The second pallas_call, as a function of the arrays it finds: the same body on the same grid as the first, over the
  second layer's arrays. Its result array holds, at (r, q), the perceptron of row r of the aggregated features. The grid has 10 points; point t stages rows 5000·t … 5000·t + 4999 of the features
  (all 64 columns) and the four parameter arrays whole, and writes back rows 5000·t … 5000·t + 4999 of the result.
  Each result entry lies in exactly the block of the point `r / 5000`, so the ten write-backs fill the array.
-/
import proofs.«148053_j79001628442825_2_alg».proof.Proof.Gen.KernelIdeal.Frame
import proofs.«148053_j79001628442825_2_alg».proof.Proof.KernelBody

set_option maxRecDepth 16384

noncomputable section

namespace Cert.KernelIdeal.RegionTwo

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The printed index maps over the grid: the feature window and the result window sit at block row t, column 0; the
    parameter windows at block 0. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The staged feature block at point t is rows 5000·t … of the feature array. -/
theorem featureBlock (c : Dev nD) (t : Fin cfg1.N) (p : Fin 5000) (l : Fin 64) (hb : t.val * 5000 + p.val < 50000) :
    (iblk1 V c 0 t : FVec Ideal S5000x64 .f32) (ix2 p l)
      = (V c main_v30 : S50000x64.Idx → EReal) (ix2 (⟨t.val * 5000 + p.val, hb⟩ : Fin 50000) l) := by
  obtain ⟨e0, e1, -⟩ := blockIndex t
  show V c main_v30 (((cfg1.win 0).blk t).view.emb (ix2 p l)) = V c main_v30 _
  refine congrArg (V c main_v30) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * l.val = l.val; rw [e1]; omega

/-- Each parameter window stages its whole array at every point. -/
theorem w1Block (c : Dev nD) (t : Fin cfg1.N) : (iblk1 V c 1 t : FVec Ideal S64x64 .bf16) = V c main_v31 := by
  obtain ⟨-, -, e0, e1, -⟩ := blockIndex t
  funext y
  show V c main_v31 (((cfg1.win 1).blk t).view.emb y) = V c main_v31 y
  refine congrArg (V c main_v31) (funext fun a => Fin.ext ?_)
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega
theorem b1Block (c : Dev nD) (t : Fin cfg1.N) : (iblk1 V c 2 t : FVec Ideal S64 .f32) = V c main_arg8 := by
  obtain ⟨-, -, -, -, e0, -⟩ := blockIndex t
  funext y
  show V c main_arg8 (((cfg1.win 2).blk t).view.emb y) = V c main_arg8 y
  refine congrArg (V c main_arg8) (funext fun a => Fin.ext ?_)
  match a with
  | ⟨0, _⟩ => show win1_2.index t (0 : Fin 1) * 64 + 1 * (y 0).val = (y 0).val; rw [e0]; omega
theorem w2Block (c : Dev nD) (t : Fin cfg1.N) : (iblk1 V c 3 t : FVec Ideal S64x64 .bf16) = V c main_v32 := by
  obtain ⟨-, -, -, -, -, e0, e1, -⟩ := blockIndex t
  funext y
  show V c main_v32 (((cfg1.win 3).blk t).view.emb y) = V c main_v32 y
  refine congrArg (V c main_v32) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega
theorem b2Block (c : Dev nD) (t : Fin cfg1.N) : (iblk1 V c 4 t : FVec Ideal S64 .f32) = V c main_arg10 := by
  obtain ⟨-, -, -, -, -, -, -, e0, -⟩ := blockIndex t
  funext y
  show V c main_arg10 (((cfg1.win 4).blk t).view.emb y) = V c main_arg10 y
  refine congrArg (V c main_arg10) (funext fun a => Fin.ext ?_)
  match a with
  | ⟨0, _⟩ => show win1_4.index t (0 : Fin 1) * 64 + 1 * (y 0).val = (y 0).val; rw [e0]; omega

/-- The result array's contents after the call, as a function of what the call finds. -/
abbrev result (c : Dev nD) : S50000x64.Idx → EReal :=
  Cert.Dense.rows (V c main_v30) (V c main_v31) (V c main_arg8) (V c main_v32) (V c main_arg10)

/-- WHAT POINT t WRITES BACK is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero off2]
  simp only [View.ld_unit_zero (S := S5000x64) off2, View.ld_unit_zero (S := S64x64) off2, View.ld_unit_zero (S := S64) off1]
  rw [w1Block, b1Block, w2Block, b2Block]
  obtain ⟨-, -, -, -, -, -, -, -, e0, e1⟩ := blockIndex t
  funext j
  show k0_pay1 (F := Ideal) (iblk1 V c 0 t) (V c main_v31) (V c main_arg8) (V c main_v32) (V c main_arg10) j
    = result V c (((cfg1.win 5).blk t).view.emb j)
  refine block_rows (V c main_v30) (iblk1 V c 0 t) (V c main_v31) (V c main_arg8) (V c main_v32) (V c main_arg10)
    (t.val * 5000) (fun p l hb => featureBlock V c t p l hb) j _ ?_ ?_
  · show win1_5.index t (0 : Fin 2) * 5000 + 1 * (j 0).val = t.val * 5000 + (j 0).val; rw [e0]; omega
  · show win1_5.index t (1 : Fin 2) * 64 + 1 * (j 1).val = (j 1).val; rw [e1]; omega

/-- An index of the result array is in point t's block iff each coordinate is in the block's range on its axis. -/
theorem mem_block (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v33).slice (win1_5.rect t)).set ↔ _
  rw [View.set_slice_whole, Rect.mem_set_unit]
  exact Iff.rfl

/-- Every index of the result array lies in the block of the point `r / 5000`. -/
theorem covered (i : S50000x64.Idx) : ∃ t : Fin cfg1.N, (cfg1.win 5).flush t = true ∧ i ∈ ((cfg1.win 5).blk t).view.set := by
  have hi0 : (i 0).val < 50000 := idx2_lt0 i
  have hi1 : (i 1).val < 64 := idx2_lt1 i
  have hN : cfg1.N = 10 := N_1
  let t : Fin cfg1.N := ⟨(i 0).val / 5000, by rw [hN]; omega⟩
  obtain ⟨-, -, -, -, -, -, -, -, e0, e1⟩ := blockIndex t
  have ht : t.val = (i 0).val / 5000 := rfl
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE RESULT ARRAY after the call. -/
theorem final (c : Dev nD) : (dat1 V c).arrAt 5 cfg1.N = result V c :=
  (dat1 V c).arrAt_eq_of_cover 5 (result V c) (fun t _ => flushed_eq V c t) covered

end Cert.KernelIdeal.RegionTwo

end
-- ==== Proof.EntryValues.lean ====
/-
  What each pallas_call of the idealized kernel finds in its five input arrays, in terms of the launch memory.
  Before the first call the host scatters the gathered source rows into the features `x` (both index arrays with their
  negative entries wrapped by the node count first) and narrows the two weight matrices, which at the exact instance
  is the identity. Before the second call it does the same with the first call's result in place of `x`. The index
  arrays and the second layer's parameters reach the second stretch as launched: no host operation and no pallas_call
  writes them.
-/
import proofs.«148053_j79001628442825_2_alg».proof.Proof.Gen.KernelIdeal.Frame
import Idealize.ShloMosaic.Lib.StableHlo.Run
import Idealize.ShloMosaic.PureOps.Ideal

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

/-- An index array with its negative entries wrapped by the node count. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The kernel's aggregation: the source rows scattered by addition INTO the features themselves, at the wrapped
    targets. -/
def aggregated (x : FVec Ideal S50000x64 .f32) (s d : IVec S800000 32) : FVec Ideal S50000x64 .f32 :=
  Host.scatterAdd scatter_S50000x64_S800000x1_S800000x64_1_0_0_1 x
    (broadcastInDim S800000x1 ![0] bcast_S800000_S800000x1_0 (wrapped d))
    (Host.gather gather_S50000x64_S800000x1_S800000x64_1_0_n_n_0_1_164 x
      (broadcastInDim S800000x1 ![0] bcast_S800000_S800000x1_0 (wrapped s)))

variable (m : (ℓ : Loc nD τ sig) → Buf (Elt Ideal) ℓ) (ρ : Dev nD → PrngReg)

/-! ## The first call's inputs -/

set_option maxHeartbeats 2000000 in
theorem first_features (c : Dev nD) : (V1 m ρ c main_v13 : S50000x64.Idx → EReal)
    = aggregated (m ((c.tc : Thread nD τ).loc main_arg0)) (m ((c.tc : Thread nD τ).loc main_arg1)) (m ((c.tc : Thread nD τ).loc main_arg2)) := by
  show StableHlo.after hostOps0 (W0 m ρ c) (Proc.devRef .tc main_v13) = _
  after_results
  rfl
theorem first_w1 (c : Dev nD) : (V1 m ρ c main_v14 : S64x64.Idx → EReal) = m ((c.tc : Thread nD τ).loc main_arg3) := by
  show StableHlo.after hostOps0 (W0 m ρ c) (Proc.devRef .tc main_v14) = _
  after_results
  rfl
theorem first_b1 (c : Dev nD) : (V1 m ρ c main_arg4 : S64.Idx → EReal) = m ((c.tc : Thread nD τ).loc main_arg4) := by
  show StableHlo.after hostOps0 (W0 m ρ c) (Proc.devRef .tc main_arg4) = _
  after_results
theorem first_w2 (c : Dev nD) : (V1 m ρ c main_v15 : S64x64.Idx → EReal) = m ((c.tc : Thread nD τ).loc main_arg5) := by
  show StableHlo.after hostOps0 (W0 m ρ c) (Proc.devRef .tc main_v15) = _
  after_results
  rfl
theorem first_b2 (c : Dev nD) : (V1 m ρ c main_arg6 : S64.Idx → EReal) = m ((c.tc : Thread nD τ).loc main_arg6) := by
  show StableHlo.after hostOps0 (W0 m ρ c) (Proc.devRef .tc main_arg6) = _
  after_results

/-! ## What the second host stretch starts from -/

/-- The first call's result buffer holds its result array after the write-backs. -/
theorem exit_result (c : Dev nD) : W2 m ρ c (Proc.devRef .tc main_v16) = (dat0 (V1 m ρ) c).arrAt 5 cfg0.N :=
  W2_arr m ρ c 5
theorem exit_main_arg1 (c : Dev nD) : W2 m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results)
theorem exit_main_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
theorem exit_main_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
theorem exit_main_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
theorem exit_main_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)
theorem exit_main_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results)

/-! ## The second call's inputs -/

set_option maxHeartbeats 2000000 in
theorem second_features (c : Dev nD) : (V3 m ρ c main_v30 : S50000x64.Idx → EReal)
    = aggregated ((dat0 (V1 m ρ) c).arrAt 5 cfg0.N) (m ((c.tc : Thread nD τ).loc main_arg1)) (m ((c.tc : Thread nD τ).loc main_arg2)) := by
  show StableHlo.after hostOps1 (W2 m ρ c) (Proc.devRef .tc main_v30) = _
  after_results
  rw [exit_result, exit_main_arg1, exit_main_arg2]
  rfl
theorem second_w1 (c : Dev nD) : (V3 m ρ c main_v31 : S64x64.Idx → EReal) = m ((c.tc : Thread nD τ).loc main_arg7) := by
  show StableHlo.after hostOps1 (W2 m ρ c) (Proc.devRef .tc main_v31) = _
  after_results
  rw [exit_main_arg7]
  rfl
theorem second_b1 (c : Dev nD) : (V3 m ρ c main_arg8 : S64.Idx → EReal) = m ((c.tc : Thread nD τ).loc main_arg8) := by
  show StableHlo.after hostOps1 (W2 m ρ c) (Proc.devRef .tc main_arg8) = _
  after_results
  rw [exit_main_arg8]
theorem second_w2 (c : Dev nD) : (V3 m ρ c main_v32 : S64x64.Idx → EReal) = m ((c.tc : Thread nD τ).loc main_arg9) := by
  show StableHlo.after hostOps1 (W2 m ρ c) (Proc.devRef .tc main_v32) = _
  after_results
  rw [exit_main_arg9]
  rfl
theorem second_b2 (c : Dev nD) : (V3 m ρ c main_arg10 : S64.Idx → EReal) = m ((c.tc : Thread nD τ).loc main_arg10) := by
  show StableHlo.after hostOps1 (W2 m ρ c) (Proc.devRef .tc main_arg10) = _
  after_results
  rw [exit_main_arg10]

end Cert.KernelIdeal.Entry

end
-- ==== Proof.ReferenceLayer.lean ====
/-
  The reference, one layer at a time. A layer takes the node features `x`, the edge sources `s` and targets `d`, and
  the layer's parameters: it gathers the source rows (a negative source index wrapped by the node count), sums them
  into zeros at the target rows, adds `x`, and applies the perceptron to every node row. Named as one function
  `layer`, the reference's result is `layer` applied twice. The dense part, read entry by entry, is
  `Cert.Dense.rows`: each host matrix product is a plain sum over the contracted axis, each bias a length-64 vector
  viewed as one row and repeated down the 50000 rows.
-/
import proofs.«148053_j79001628442825_2_alg».proof.Proof.Gen.ReferenceIdeal.Read
import proofs.«148053_j79001628442825_2_alg».proof.Proof.DenseRow

noncomputable section

namespace Cert.ReferenceIdeal.Layer

open Cert.ReferenceIdeal Cert.ReferenceIdeal.Gen Idealize.ShloMosaic Idealize.ShloMosaic.TcCoe Idealize.SL.Sem
open Idealize.ShloMosaic.ValueIdx

/-! ## The dense part, entry by entry -/

/-- A 50000×64 array times a 64×64 matrix on the host: entry (r, q) is ∑ₗ a(r, l) · b(l, q). -/
theorem hostProduct_apply (a : FVec Ideal S50000x64 .f32) (b : FVec Ideal S64x64 .f32) (r : Fin 50000) (q : Fin 64) :
    Host.dotGeneral dot_S50000x64_S64x64_S50000x64_1_0_0_1_n_n none a b (ix2 r q) = ∑ l : Fin 64, a (ix2 r l) * b (ix2 l q) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun l _ => ?_
  have hl := ValueIdx.contrEquiv1_symm_val dot_S50000x64_S64x64_S50000x64_1_0_0_1_n_n 64 rfl rfl l
  have el : dot_S50000x64_S64x64_S50000x64_1_0_0_1_n_n.lhsIdx (ix2 r q) ((ValueIdx.contrEquiv1 dot_S50000x64_S64x64_S50000x64_1_0_0_1_n_n 64 rfl rfl).symm l) = ix2 r l :=
    funext fun a => Fin.ext (by
      match a with
      | ⟨0, _⟩ => exact Read.lhs_main_v11_0 _ _
      | ⟨1, _⟩ => exact (Read.lhs_main_v11_1 _ _).trans hl)
  have er : dot_S50000x64_S64x64_S50000x64_1_0_0_1_n_n.rhsIdx (ix2 r q) ((ValueIdx.contrEquiv1 dot_S50000x64_S64x64_S50000x64_1_0_0_1_n_n 64 rfl rfl).symm l) = ix2 l q :=
    funext fun a => Fin.ext (by
      match a with
      | ⟨0, _⟩ => exact (Read.rhs_main_v11_0 _ _).trans hl
      | ⟨1, _⟩ => exact Read.rhs_main_v11_1 _ _)
  rw [el, er]

/-- A length-64 bias viewed as one row and repeated down the rows: entry (r, q) is the bias's entry q. -/
theorem biasRows_apply (b : FVec Ideal S64 .f32) (r : Fin 50000) (q : Fin 64) :
    broadcastInDim S50000x64 ![0, 1] bcast_S1x64_S50000x64_0_1 (broadcastInDim S1x64 ![1] bcast_S64_S1x64_1 b) (ix2 r q)
      = b (ix1 q) := by
  refine (broadcastInDim_apply _ bcast_S1x64_S50000x64_0_1 _ (ix2 r q) (ix2 (0 : Fin 1) q) (fun a => ?_)).trans
    (broadcastInDim_apply _ bcast_S64_S1x64_1 b (ix2 (0 : Fin 1) q) (ix1 q) (fun a => ?_))
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The perceptron in the host's spelling: product, bias, tanh, product, bias. -/
def denseHost (h : FVec Ideal S50000x64 .f32) (w1 : FVec Ideal S64x64 .f32) (b1 : FVec Ideal S64 .f32)
    (w2 : FVec Ideal S64x64 .f32) (b2 : FVec Ideal S64 .f32) : FVec Ideal S50000x64 .f32 :=
  addf (Host.dotGeneral dot_S50000x64_S64x64_S50000x64_1_0_0_1_n_n none
      (Host.tanh (addf (Host.dotGeneral dot_S50000x64_S64x64_S50000x64_1_0_0_1_n_n none h w1)
        (broadcastInDim S50000x64 ![0, 1] bcast_S1x64_S50000x64_0_1 (broadcastInDim S1x64 ![1] bcast_S64_S1x64_1 b1)))) w2)
    (broadcastInDim S50000x64 ![0, 1] bcast_S1x64_S50000x64_0_1 (broadcastInDim S1x64 ![1] bcast_S64_S1x64_1 b2))

/-- Entry by entry the host's perceptron is the per-row perceptron. -/
theorem denseHost_eq_rows (h : FVec Ideal S50000x64 .f32) (w1 : FVec Ideal S64x64 .f32) (b1 : FVec Ideal S64 .f32)
    (w2 : FVec Ideal S64x64 .f32) (b2 : FVec Ideal S64 .f32) :
    denseHost h w1 b1 w2 b2 = Cert.Dense.rows h w1 b1 w2 b2 := by
  funext i
  obtain ⟨r, q, rfl⟩ : ∃ (r : Fin 50000) (q : Fin 64), i = ix2 r q := ⟨i 0, i 1, eq_ix2 i⟩
  unfold denseHost
  show _ + _ = Cert.Dense.denseAt (fun l => h (ix2 r l)) (fun l k => w1 (ix2 l k)) (fun k => b1 (ix1 k))
    (fun k c => w2 (ix2 k c)) (fun c => b2 (ix1 c)) q
  rw [hostProduct_apply, biasRows_apply]
  unfold Cert.Dense.denseAt
  refine congrArg (· + b2 (ix1 q)) (Finset.sum_congr rfl fun k _ => ?_)
  refine congrArg (· * w2 (ix2 k q)) ?_
  show Ideal.tanh (_ + _) = _
  rw [hostProduct_apply, biasRows_apply]

/-! ## One layer -/

/-- A source or target index array with its negative entries wrapped by the node count. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The source rows, one per edge. -/
def sourceRows (x : FVec Ideal S50000x64 .f32) (s : IVec S800000 32) : FVec Ideal S800000x64 .f32 :=
  Host.gather gather_S50000x64_S800000x1_S800000x64_1_0_n_n_0_1_164 x
    (broadcastInDim S800000x1 ![0] bcast_S800000_S800000x1_0 (wrapped s))

/-- The array of zeros the edge sums start from. -/
def zeroRows : FVec Ideal S50000x64 .f32 :=
  broadcastInDim S50000x64 ![] bcast_S_S50000x64 (constant (F := Ideal) S_ .f32 0x00000000#32)

theorem zeroRows_apply (i : S50000x64.Idx) : zeroRows i = (0 : EReal) := by
  show Ideal.ofBits .f32 0x00000000#32 = 0
  exact Ideal.ofBits_zero_f32

/-- The aggregated features: `x` plus, at each node, the sum of the source rows of the edges that target it. -/
def aggregated (x : FVec Ideal S50000x64 .f32) (s d : IVec S800000 32) : FVec Ideal S50000x64 .f32 :=
  addf x (Host.scatterAdd scatter_S50000x64_S800000x1_S800000x64_1_0_0_1 zeroRows
    (broadcastInDim S800000x1 ![0] bcast_S800000_S800000x1_0 d) (sourceRows x s))

/-- One layer: aggregate, then the perceptron on every node row. -/
def layer (x : FVec Ideal S50000x64 .f32) (s d : IVec S800000 32) (w1 : FVec Ideal S64x64 .f32) (b1 : FVec Ideal S64 .f32)
    (w2 : FVec Ideal S64x64 .f32) (b2 : FVec Ideal S64 .f32) : FVec Ideal S50000x64 .f32 :=
  denseHost (aggregated x s d) w1 b1 w2 b2

/-! ## The run -/

/-- The reference's run: its result is two layers of the arguments, which it leaves as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
        = layer (layer (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
            (m ((c.tc : Thread nD τ).loc main_arg1)) (m ((c.tc : Thread nD τ).loc main_arg2))
            (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨by
      unfold layer denseHost aggregated sourceRows wrapped zeroRows
      exact (h c).1, (h c).2⟩)
    (Cert.ReferenceIdeal.Value.run (F := Ideal) m ρ)

end Cert.ReferenceIdeal.Layer

end
-- ==== Proof.AggregateLaws.lean ====
/-
  Two facts about the sparse aggregation step `h = x + (sum over the edges landing on a node of the source rows)`,
  over the extended reals, and one about signed index words.

  * An accumulating scatter into a base array is the base plus the same scatter into zeros: at every element both are
    the base element plus the sum of the updates landing there, and `0 + s = s`. Commutativity and associativity of
    `+` on the extended reals are all this uses, so it holds at infinite entries too.
  * Wrapping a negative index by the axis length (`i < 0 ? i + n : i`) changes nothing when every index is
    non-negative in the signed reading.
-/
import Idealize.ShloMosaic.PureOps.Ideal.Laws
import Idealize.ShloMosaic.PureOps.Contract
import Idealize.ShloMosaic.Lib.Affine

noncomputable section

namespace Cert.Aggregate

open Idealize.ShloMosaic

/-- At every element, scattering updates by addition into `x` gives `x` plus what the same scatter gives into an
    array of zeros. -/
theorem scatterAdd_base {s si su : Shape} (d : ScatterDims s si su) {w : Nat} (x z : FVec Ideal s .f32)
    (hz : ∀ i, z i = (0 : EReal)) (idx : IVec si w) (upd : FVec Ideal su .f32) :
    Host.scatterAdd d x idx upd = addf x (Host.scatterAdd d z idx upd) := by
  funext i
  show Ideal.hostScatterAdd d x idx upd i = x i + Ideal.hostScatterAdd d z idx upd i
  unfold Ideal.hostScatterAdd
  rw [hz i, zero_add]

/-- A 32-bit word that is `≥ 0` in the signed order is not `< 0` in it. -/
theorem not_slt_zero_of_sge_zero (a : BitVec 32) (h : IntOp.cmpi .sge a 0#32 = 1#1) : IntOp.cmpi .slt a 0#32 = 0#1 := by
  unfold IntOp.cmpi at h ⊢
  simp only [BitVec.sle, BitVec.slt] at h ⊢
  cases hlt : decide (a.toInt < (0#32 : BitVec 32).toInt) with
  | false => rfl
  | true =>
    exfalso
    have h1 : a.toInt < (0#32 : BitVec 32).toInt := of_decide_eq_true hlt
    have h2 : decide ((0#32 : BitVec 32).toInt ≤ a.toInt) = true := by
      cases hd : decide ((0#32 : BitVec 32).toInt ≤ a.toInt) with
      | true => rfl
      | false => rw [hd] at h; exact absurd h (by decide)
    exact absurd (of_decide_eq_true h2) (not_le.mpr h1)

/-- Index normalisation is the identity on an index array all of whose entries are non-negative: where the
    comparison `d < 0` is false the selection keeps `d`. -/
theorem wrap_negative_eq_self {s : Shape} (d zero len : IVec s 32) (hzero : ∀ e, zero e = 0#32)
    (hd : ∀ e, IntOp.cmpi .sge (d e) (zero e) = 1#1) :
    select (cmpi .slt d zero) (addi d len) d = d := by
  funext e
  show Scalar.select (IntOp.cmpi .slt (d e) (zero e)) _ _ = d e
  have h := hd e
  rw [hzero e] at h ⊢
  rw [not_slt_zero_of_sge_zero (d e) h]
  rfl

end Cert.Aggregate

end
-- ==== Proof.TwoLayers.lean ====
/-
  The idealized kernel computes the reference's two layers. Per layer the two programs differ in one place: the kernel
  scatters the gathered source rows by addition INTO the features, at targets whose negative entries it first wraps by
  the node count; the reference scatters them into zeros at the targets as given and adds the features afterwards.
  Where every target is ≥ 0 the wrapping changes nothing, and a scatter by addition into `x` is `x` plus the same
  scatter into zeros (`0 + s = s`: no finiteness is used). The perceptron that follows is the same function of the
  aggregated rows on both sides, entry by entry (`Cert.Dense.rows`), whether it runs block by block on the
  TensorCore or in one piece on the host.
-/
import proofs.«148053_j79001628442825_2_alg».proof.Proof.RegionOne
import proofs.«148053_j79001628442825_2_alg».proof.Proof.RegionTwo
import proofs.«148053_j79001628442825_2_alg».proof.Proof.EntryValues
import proofs.«148053_j79001628442825_2_alg».proof.Proof.ReferenceLayer
import proofs.«148053_j79001628442825_2_alg».proof.Proof.AggregateLaws

set_option maxRecDepth 16384

noncomputable section

namespace Cert.TwoLayers

open Idealize.ShloMosaic Idealize.ShloMosaic.TcCoe Idealize.SL.Sem

/-- The kernel's aggregation is the reference's when no target is negative. -/
theorem aggregated_eq (x : FVec Ideal Cert.ReferenceIdeal.S50000x64 .f32) (s d : IVec Cert.ReferenceIdeal.S800000 32)
    (hd : ∀ e, IntOp.cmpi .sge (d e) 0#32 = 1#1) :
    Cert.KernelIdeal.Entry.aggregated x s d = Cert.ReferenceIdeal.Layer.aggregated x s d := by
  unfold Cert.KernelIdeal.Entry.aggregated Cert.ReferenceIdeal.Layer.aggregated
  rw [show Cert.KernelIdeal.Entry.wrapped d = d from
    Cert.Aggregate.wrap_negative_eq_self d _ _ (fun _ => rfl) (fun e => hd e)]
  exact Cert.Aggregate.scatterAdd_base _ x _ Cert.ReferenceIdeal.Layer.zeroRows_apply _ _

variable (m : (ℓ : Loc Cert.KernelIdeal.nD Cert.KernelIdeal.τ Cert.KernelIdeal.sig) → Buf (Elt Ideal) ℓ)
  (ρ : Dev Cert.KernelIdeal.nD → PrngReg)

/-- THE KERNEL'S RESULT: the second call's result array after its write-backs is two reference layers of the launch
    memory, when no edge target is negative. -/
theorem kernel_value (c : Dev Cert.KernelIdeal.nD)
    (hd : ∀ e, IntOp.cmpi .sge ((m ((c.tc : Thread Cert.KernelIdeal.nD Cert.KernelIdeal.τ).loc Cert.KernelIdeal.main_arg2)) e) 0#32 = 1#1) :
    (Cert.KernelIdeal.Gen.dat1 (Cert.KernelIdeal.Gen.V3 m ρ) c).arrAt 5 Cert.KernelIdeal.cfg1.N
      = Cert.ReferenceIdeal.Layer.layer
      (Cert.ReferenceIdeal.Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.RegionTwo.final (Cert.KernelIdeal.Gen.V3 m ρ) c]
  unfold Cert.KernelIdeal.RegionTwo.result
  rw [Cert.KernelIdeal.Entry.second_features, Cert.KernelIdeal.Entry.second_w1, Cert.KernelIdeal.Entry.second_b1,
    Cert.KernelIdeal.Entry.second_w2, Cert.KernelIdeal.Entry.second_b2]
  rw [Cert.KernelIdeal.RegionOne.final (Cert.KernelIdeal.Gen.V1 m ρ) c]
  unfold Cert.KernelIdeal.RegionOne.result
  rw [Cert.KernelIdeal.Entry.first_features, Cert.KernelIdeal.Entry.first_w1, Cert.KernelIdeal.Entry.first_b1,
    Cert.KernelIdeal.Entry.first_w2, Cert.KernelIdeal.Entry.first_b2]
  rw [aggregated_eq _ _ _ hd, aggregated_eq _ _ _ hd]
  unfold Cert.ReferenceIdeal.Layer.layer
  rw [Cert.ReferenceIdeal.Layer.denseHost_eq_rows, Cert.ReferenceIdeal.Layer.denseHost_eq_rows]

end Cert.TwoLayers

end
-- ==== Proof.EdgeTargets.lean ====
/-
  What the precondition says about the edge targets. The precondition is a conjunction, printed as a chain of
  one-bit `and`s, whose last conjunct is "every target index is ≥ 0 in the signed order", itself an `and` over the
  800000 comparison bits. If the whole chain is 1 then so is its last conjunct, and an `and` over an array that came
  out 1 met a 1 at every entry. The finiteness conjuncts in front of it are not opened.
-/
import proofs.«148053_j79001628442825_2_alg».proof.Pre_finite_inputs
import Idealize.ShloMosaic.Lib.ReduceAll
import Idealize.ShloMosaic.Lib.Affine

noncomputable section

namespace Cert.Pre_finite_inputs.EdgeTargets

open Cert.Pre_finite_inputs Idealize.ShloMosaic

variable [Cert.Pre_finite_inputs.Facts] {F : FTy → Type} [FloatOps F]
open Cert.Pre_finite_inputs.Facts

/-- The scalar shape has one index. -/
instance : Subsingleton S_.Idx := ⟨fun a b => funext fun d => d.elim0⟩

/-- The array of zeros the targets are compared with. -/
abbrev zeros : IVec S800000 32 := broadcastInDim S800000 ![] bcast_S_S800000 (constantI S_ 32 0#32)

theorem zeros_apply (e : S800000.Idx) : zeros e = 0#32 := rfl

/-- The tail of the chain: if it is 1 at the one scalar index, every target compares `≥ 0`. -/
theorem nonneg_of_part2 (a2 : IVec S800000 32) (a9 : FVec F S64x64 .f32) (a10 : FVec F S64 .f32) (acc : IVec S_ 1)
    (j : S_.Idx) (h : fn_part2 (F := F) a2 a9 a10 acc j = 1#1) (e : S800000.Idx) :
    IntOp.cmpi .sge (a2 e) (zeros e) = 1#1 := by
  unfold fn_part2 at h
  dsimp only at h
  have h2 := (IntOp.andi_eq_one.1 h).2
  exact Host.reduce_andi_all _ _ _ _ j h2 e

/-- THE PRECONDITION'S LAST CONJUNCT: where the printed predicate is all ones, every edge target is `≥ 0`. -/
theorem nonneg_of_pre (a0 : FVec F S50000x64 .f32) (a1 a2 : IVec S800000 32) (a3 : FVec F S64x64 .f32)
    (a4 : FVec F S64 .f32) (a5 : FVec F S64x64 .f32) (a6 : FVec F S64 .f32) (a7 : FVec F S64x64 .f32)
    (a8 : FVec F S64 .f32) (a9 : FVec F S64x64 .f32) (a10 : FVec F S64 .f32)
    (h : fn (F := F) a0 a1 a2 a3 a4 a5 a6 a7 a8 a9 a10 = fun _ => 1#1) (e : S800000.Idx) :
    IntOp.cmpi .sge (a2 e) (zeros e) = 1#1 := by
  have h0 := congrFun h (fun d => d.elim0)
  unfold fn at h0
  dsimp only at h0
  unfold fn_part1 at h0
  dsimp only at h0
  exact nonneg_of_part2 a2 a9 a10 _ _ h0 e

end Cert.Pre_finite_inputs.EdgeTargets

end
-- ==== Proof.lean ====
/-
  The claim: a two-layer graph network with sum aggregation, whose per-node perceptron runs on the TensorCore in blocks
  of 5000 nodes, against the same network written in one piece on the host. Over the extended reals, where changes of
  float format are the identity and sums are exact, both programs compute

      out = L₂ (L₁ x),   Lₖ y = rows (y + Σ_{edges into a node} y[source]) W₁ₖ b₁ₖ W₂ₖ b₂ₖ,

  with `rows` the perceptron applied to every node row. The kernel wraps negative edge targets by the node count where
  the reference drops them, so the two agree where every target is ≥ 0, which the precondition states beside the
  finiteness of the float inputs. Finiteness itself is not used: the one law joining the two sides is `0 + s = s`.

  The three frames: the two kernel programs' are the generated frame certificates; the reference's is its run with the
  result dropped. The idealization rewrote nothing, so `preserves` has nothing to state. For `algebraic` the common
  value is two reference layers of the kernel's launch memory: the kernel's run reaches it by `TwoLayers.kernel_value`,
  the reference's by rewriting its arguments with the agreement of the two memories.
-/
import proofs.«148053_j79001628442825_2_alg».proof.Defs
import proofs.«148053_j79001628442825_2_alg».proof.Proof.Gen.Kernel
import proofs.«148053_j79001628442825_2_alg».proof.Proof.Gen.Kernel.Skeleton
import proofs.«148053_j79001628442825_2_alg».proof.Proof.Gen.Kernel.Launch
import proofs.«148053_j79001628442825_2_alg».proof.Proof.Gen.Kernel.Points
import proofs.«148053_j79001628442825_2_alg».proof.Proof.Gen.Kernel.Frame
import proofs.«148053_j79001628442825_2_alg».proof.Proof.Gen.KernelIdeal
import proofs.«148053_j79001628442825_2_alg».proof.Proof.Gen.KernelIdeal.Skeleton
import proofs.«148053_j79001628442825_2_alg».proof.Proof.Gen.KernelIdeal.Launch
import proofs.«148053_j79001628442825_2_alg».proof.Proof.Gen.KernelIdeal.Points
import proofs.«148053_j79001628442825_2_alg».proof.Proof.Gen.KernelIdeal.Frame
import proofs.«148053_j79001628442825_2_alg».proof.Proof.Gen.ReferenceIdeal
import proofs.«148053_j79001628442825_2_alg».proof.Proof.Gen.ReferenceIdeal.Run
import proofs.«148053_j79001628442825_2_alg».proof.Proof.Gen.ReferenceIdeal.Read
import proofs.«148053_j79001628442825_2_alg».proof.Proof.Gen.Pre_finite_inputs
import proofs.«148053_j79001628442825_2_alg».proof.Proof.KernelRun
import proofs.«148053_j79001628442825_2_alg».proof.Proof.TwoLayers
import proofs.«148053_j79001628442825_2_alg».proof.Proof.EdgeTargets
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at two reference layers of the kernel's launch memory. -/
theorem algebraic : Cert.algebraic_KernelIdeal_ReferenceIdeal := by
  intro m ρ m' ρ' hpre hagree
  refine ⟨fun c => Cert.ReferenceIdeal.Layer.layer
      (Cert.ReferenceIdeal.Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.TwoLayers.kernel_value m ρ c
          (fun e => Cert.Pre_finite_inputs.EdgeTargets.nonneg_of_pre _ _ _ _ _ _ _ _ _ _ _ (hpre c) e)), (h c).2⟩)
      (Cert.KernelIdeal.RunValue.run m ρ)
  · refine (θ_run Cert.ReferenceIdeal.defs _ _).mono (fun r h c => ⟨(h c).1.trans ?_, (h c).2⟩)
      (Cert.ReferenceIdeal.Layer.run m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
